-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x64 : Shape := ⟨4, ![16, 128, 64, 64]⟩
abbrev S_ : Shape := ⟨0, ![]⟩

class Facts : Prop where
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  h_S_ : 0 < S_.numel

variable [Facts]

def fn {F : FTy → Type} [FloatOps F] (main_arg0 : FVec F S16x128x64x64 .f32) : IVec S_ 1 :=
  let main_v0 : FVec F S16x128x64x64 .f32 := Host.absf main_arg0
  let main_cst : FVec F S_ .f32 := constant S_ .f32 0x7F800000#32
  let main_v1 : FVec F S16x128x64x64 .f32 := broadcastInDim S16x128x64x64 ![] bcast_S_S16x128x64x64 main_cst
  let main_v2 : IVec S16x128x64x64 1 := cmpf .olt main_v0 main_v1
  let main_c : IVec S_ 1 := constantI S_ 1 1#1
  let main_v3 : IVec S_ 1 := (fun x v => Host.reduce IntOp.andi x v reducesTo_S16x128x64x64_S_d0_1_2_3 h_S_) main_v2 main_c
  main_v3
-- ==== Kernel.lean ====
abbrev S16x128x64x64 : Shape := ⟨4, ![16, 128, 64, 64]⟩
abbrev S16x128x9x64x64 : Shape := ⟨5, ![16, 128, 9, 64, 64]⟩
abbrev S1x32x64x64 : Shape := ⟨4, ![1, 32, 64, 64]⟩
abbrev S1x32x9x64x64 : Shape := ⟨5, ![1, 32, 9, 64, 64]⟩
abbrev S32x66x66 : Shape := ⟨3, ![32, 66, 66]⟩
abbrev S32x64x64 : Shape := ⟨3, ![32, 64, 64]⟩
abbrev S1x32x1x64x64 : Shape := ⟨5, ![1, 32, 1, 64, 64]⟩
abbrev S16x1152x4096 : Shape := ⟨3, ![16, 1152, 4096]⟩

abbrev nBuf : Space → Nat
  | .hbm => 3
  | .vmem => 5
  | .smem => 0
  | _ => 0

abbrev bufTy : (tb : Table) → Fin (tcTables nBuf tb) → BufTy
  | .hbm, ⟨0, _⟩ => ⟨S16x128x64x64, .f32⟩
  | .hbm, ⟨1, _⟩ => ⟨S16x128x9x64x64, .f32⟩
  | .hbm, ⟨2, _⟩ => ⟨S16x1152x4096, .f32⟩
  | .local _ .vmem, ⟨0, _⟩ => ⟨S1x32x64x64, .f32⟩
  | .local _ .vmem, ⟨1, _⟩ => ⟨S1x32x64x64, .f32⟩
  | .local _ .vmem, ⟨2, _⟩ => ⟨S1x32x9x64x64, .f32⟩
  | .local _ .vmem, ⟨3, _⟩ => ⟨S1x32x9x64x64, .f32⟩
  | .local _ .vmem, ⟨4, _⟩ => ⟨S32x66x66, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S32x66x66_S32x66x66_0_0_0 : ∀ a, (![0, 0, 0] : Fin 3 → Nat) a + S32x66x66.size a ≤ S32x66x66.size a
  h_S32x66x66 : 0 < S32x66x66.numel
  shapeCasts_S32x66x66_S32x66x66 : S32x66x66.ShapeCasts S32x66x66
  inb_S1x32x64x64_S1x32x64x64_0_0_0_0 : ∀ a, (![0, 0, 0, 0] : Fin 4 → Nat) a + S1x32x64x64.size a ≤ S1x32x64x64.size a
  h_S1x32x64x64 : 0 < S1x32x64x64.numel
  shapeCasts_S1x32x64x64_S32x64x64 : S1x32x64x64.ShapeCasts S32x64x64
  inb_S32x66x66_S32x64x64_0_1_1 : ∀ a, (![0, 1, 1] : Fin 3 → Nat) a + S32x64x64.size a ≤ S32x66x66.size a
  h_S32x64x64 : 0 < S32x64x64.numel
  shapeCasts_S32x64x64_S32x64x64 : S32x64x64.ShapeCasts S32x64x64
  inb_S32x66x66_S32x64x64_0_0_0 : ∀ a, (![0, 0, 0] : Fin 3 → Nat) a + S32x64x64.size a ≤ S32x66x66.size a
  inb_S1x32x9x64x64_S1x32x1x64x64_0_0_0_0_0 : ∀ a, (![0, 0, 0, 0, 0] : Fin 5 → Nat) a + S1x32x1x64x64.size a ≤ S1x32x9x64x64.size a
  h_S1x32x1x64x64 : 0 < S1x32x1x64x64.numel
  shapeCasts_S1x32x1x64x64_S32x64x64 : S1x32x1x64x64.ShapeCasts S32x64x64
  shapeCasts_S32x64x64_S1x32x1x64x64 : S32x64x64.ShapeCasts S1x32x1x64x64
  inb_S32x66x66_S32x64x64_0_0_1 : ∀ a, (![0, 0, 1] : Fin 3 → Nat) a + S32x64x64.size a ≤ S32x66x66.size a
  inb_S1x32x9x64x64_S1x32x1x64x64_0_0_1_0_0 : ∀ a, (![0, 0, 1, 0, 0] : Fin 5 → Nat) a + S1x32x1x64x64.size a ≤ S1x32x9x64x64.size a
  inb_S32x66x66_S32x64x64_0_0_2 : ∀ a, (![0, 0, 2] : Fin 3 → Nat) a + S32x64x64.size a ≤ S32x66x66.size a
  inb_S1x32x9x64x64_S1x32x1x64x64_0_0_2_0_0 : ∀ a, (![0, 0, 2, 0, 0] : Fin 5 → Nat) a + S1x32x1x64x64.size a ≤ S1x32x9x64x64.size a
  inb_S32x66x66_S32x64x64_0_1_0 : ∀ a, (![0, 1, 0] : Fin 3 → Nat) a + S32x64x64.size a ≤ S32x66x66.size a
  inb_S1x32x9x64x64_S1x32x1x64x64_0_0_3_0_0 : ∀ a, (![0, 0, 3, 0, 0] : Fin 5 → Nat) a + S1x32x1x64x64.size a ≤ S1x32x9x64x64.size a
  inb_S1x32x9x64x64_S1x32x1x64x64_0_0_4_0_0 : ∀ a, (![0, 0, 4, 0, 0] : Fin 5 → Nat) a + S1x32x1x64x64.size a ≤ S1x32x9x64x64.size a
  inb_S32x66x66_S32x64x64_0_1_2 : ∀ a, (![0, 1, 2] : Fin 3 → Nat) a + S32x64x64.size a ≤ S32x66x66.size a
  inb_S1x32x9x64x64_S1x32x1x64x64_0_0_5_0_0 : ∀ a, (![0, 0, 5, 0, 0] : Fin 5 → Nat) a + S1x32x1x64x64.size a ≤ S1x32x9x64x64.size a
  inb_S32x66x66_S32x64x64_0_2_0 : ∀ a, (![0, 2, 0] : Fin 3 → Nat) a + S32x64x64.size a ≤ S32x66x66.size a
  inb_S1x32x9x64x64_S1x32x1x64x64_0_0_6_0_0 : ∀ a, (![0, 0, 6, 0, 0] : Fin 5 → Nat) a + S1x32x1x64x64.size a ≤ S1x32x9x64x64.size a
  inb_S32x66x66_S32x64x64_0_2_1 : ∀ a, (![0, 2, 1] : Fin 3 → Nat) a + S32x64x64.size a ≤ S32x66x66.size a
  inb_S1x32x9x64x64_S1x32x1x64x64_0_0_7_0_0 : ∀ a, (![0, 0, 7, 0, 0] : Fin 5 → Nat) a + S1x32x1x64x64.size a ≤ S1x32x9x64x64.size a
  inb_S32x66x66_S32x64x64_0_2_2 : ∀ a, (![0, 2, 2] : Fin 3 → Nat) a + S32x64x64.size a ≤ S32x66x66.size a
  inb_S1x32x9x64x64_S1x32x1x64x64_0_0_8_0_0 : ∀ a, (![0, 0, 8, 0, 0] : Fin 5 → Nat) a + S1x32x1x64x64.size a ≤ S1x32x9x64x64.size a
  shapeCasts_S16x128x9x64x64_S16x1152x4096 : S16x128x9x64x64.ShapeCasts S16x1152x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x64.size a ≤ S16x128x64x64.size a
  hwx0_0 : ∀ i : grid0.Coords, EltTy.bits .f32 = 32 ∨ (Rect.block (s := S16x128x64x64) S1x32x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x9x64x64.size a ≤ S16x128x9x64x64.size a
  hwx0_1 : ∀ i : grid0.Coords, EltTy.bits .f32 = 32 ∨ (Rect.block (s := S16x128x9x64x64) S1x32x9x64x64.size (cc0_transform_1 i) (hinb0_1 i)).WholeWords (EltTy.packing .f32)

variable [Facts₀]

abbrev win0_0 : Pipeline.Window sig grid0 :=
  Pipeline.Window.ofSpec (Memref.whole main_arg0) S1x32x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x9x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x64x64 : Shape := ⟨4, ![16, 128, 64, 64]⟩
abbrev S_ : Shape := ⟨0, ![]⟩
abbrev S16x128x66x66 : Shape := ⟨4, ![16, 128, 66, 66]⟩
abbrev S16x128x1x64x64 : Shape := ⟨5, ![16, 128, 1, 64, 64]⟩
abbrev S16x128x9x64x64 : Shape := ⟨5, ![16, 128, 9, 64, 64]⟩
abbrev S16x1152x4096 : Shape := ⟨3, ![16, 1152, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16x128x64x64, .f32⟩
  | .hbm, ⟨1, _⟩ => ⟨S_, .i32⟩
  | .hbm, ⟨2, _⟩ => ⟨S_, .f32⟩
  | .hbm, ⟨3, _⟩ => ⟨S16x128x66x66, .f32⟩
  | .hbm, ⟨4, _⟩ => ⟨S16x128x64x64, .f32⟩
  | .hbm, ⟨5, _⟩ => ⟨S16x128x64x64, .f32⟩
  | .hbm, ⟨6, _⟩ => ⟨S16x128x64x64, .f32⟩
  | .hbm, ⟨7, _⟩ => ⟨S16x128x64x64, .f32⟩
  | .hbm, ⟨8, _⟩ => ⟨S16x128x64x64, .f32⟩
  | .hbm, ⟨9, _⟩ => ⟨S16x128x64x64, .f32⟩
  | .hbm, ⟨10, _⟩ => ⟨S16x128x64x64, .f32⟩
  | .hbm, ⟨11, _⟩ => ⟨S16x128x64x64, .f32⟩
  | .hbm, ⟨12, _⟩ => ⟨S16x128x64x64, .f32⟩
  | .hbm, ⟨13, _⟩ => ⟨S16x128x1x64x64, .f32⟩
  | .hbm, ⟨14, _⟩ => ⟨S16x128x1x64x64, .f32⟩
  | .hbm, ⟨15, _⟩ => ⟨S16x128x1x64x64, .f32⟩
  | .hbm, ⟨16, _⟩ => ⟨S16x128x1x64x64, .f32⟩
  | .hbm, ⟨17, _⟩ => ⟨S16x128x1x64x64, .f32⟩
  | .hbm, ⟨18, _⟩ => ⟨S16x128x1x64x64, .f32⟩
  | .hbm, ⟨19, _⟩ => ⟨S16x128x1x64x64, .f32⟩
  | .hbm, ⟨20, _⟩ => ⟨S16x128x1x64x64, .f32⟩
  | .hbm, ⟨21, _⟩ => ⟨S16x128x1x64x64, .f32⟩
  | .hbm, ⟨22, _⟩ => ⟨S16x128x9x64x64, .f32⟩
  | .hbm, ⟨23, _⟩ => ⟨S16x1152x4096, .f32⟩
  | _, _ => ⟨S16x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]

class Facts₀ : Prop where
  pads_S16x128x64x64_S16x128x66x66_000_000_110_110 : S16x128x64x64.Pads (![0, 0, 1, 1] : Fin 4 → Nat) ![0, 0, 1, 1] ![0, 0, 0, 0] S16x128x66x66
  h_S_ : 0 < S_.numel
  slices_S16x128x66x66_S16x128x64x64_0_0_0_0 : S16x128x66x66.Slices ![0, 0, 0, 0] S16x128x64x64
  slices_S16x128x66x66_S16x128x64x64_0_0_0_1 : S16x128x66x66.Slices ![0, 0, 0, 1] S16x128x64x64
  slices_S16x128x66x66_S16x128x64x64_0_0_0_2 : S16x128x66x66.Slices ![0, 0, 0, 2] S16x128x64x64
  slices_S16x128x66x66_S16x128x64x64_0_0_1_0 : S16x128x66x66.Slices ![0, 0, 1, 0] S16x128x64x64
  slices_S16x128x66x66_S16x128x64x64_0_0_1_1 : S16x128x66x66.Slices ![0, 0, 1, 1] S16x128x64x64
  slices_S16x128x66x66_S16x128x64x64_0_0_1_2 : S16x128x66x66.Slices ![0, 0, 1, 2] S16x128x64x64
  slices_S16x128x66x66_S16x128x64x64_0_0_2_0 : S16x128x66x66.Slices ![0, 0, 2, 0] S16x128x64x64
  slices_S16x128x66x66_S16x128x64x64_0_0_2_1 : S16x128x66x66.Slices ![0, 0, 2, 1] S16x128x64x64
  slices_S16x128x66x66_S16x128x64x64_0_0_2_2 : S16x128x66x66.Slices ![0, 0, 2, 2] S16x128x64x64
  bcast_S16x128x64x64_S16x128x1x64x64_0_1_3_4 : S16x128x64x64.BroadcastsInDim S16x128x1x64x64 (![0, 1, 3, 4] : Fin 4 → Fin S16x128x1x64x64.rank)
  concatenates_S16x128x1x64x64_S16x128x1x64x64_S16x128x1x64x64_S16x128x1x64x64_S16x128x1x64x64_S16x128x1x64x64_S16x128x1x64x64_S16x128x1x64x64_S16x128x1x64x64_S16x128x9x64x64_d2 : Shape.Concatenates [S16x128x1x64x64, S16x128x1x64x64, S16x128x1x64x64, S16x128x1x64x64, S16x128x1x64x64, S16x128x1x64x64, S16x128x1x64x64, S16x128x1x64x64, S16x128x1x64x64] S16x128x9x64x64 2
  shapeCasts_S16x128x9x64x64_S16x1152x4096 : S16x128x9x64x64.ShapeCasts S16x1152x4096

variable [Facts₀]

class Facts : Prop extends Facts₀ where

variable [Facts]
-- ==== Proof.Spec.lean ====
/-
  The function both programs compute, stated once over plain shapes.

  An image of 16 × 128 planes of 64 × 64 values is padded by one row and one column of a value `z` on every side
  (a 66 × 66 plane), and each plane is replaced by its nine 64 × 64 windows at the row shifts 0, 1, 2 and column shifts
  0, 1, 2: window `p` at `(y, x)` is the padded plane at `(p / 3 + y, p % 3 + x)`. The same for one slab of 32 planes
  (what one grid point of the kernel handles), and the fact that a slab's windows are the image's windows when the
  slab is a block of the image. Coordinates are natural numbers throughout, so that every later step is linear
  arithmetic on them.
-/
import Idealize.ShloMosaic.Lib.ValueIdx
import Idealize.ShloMosaic.Lib.Pipeline.Value

noncomputable section

namespace Cert.Patches

open Idealize.ShloMosaic Idealize.ShloMosaic.ValueIdx

variable {α : Type}

/-- A slab of 32 planes padded with `z`, at plane `ch`, padded row `r`, padded column `c`: the slab at
    `(ch, r - 1, c - 1)` when `1 ≤ r, c ≤ 64`, and `z` on the border (and at any other coordinates). -/
def slabPad (z : α) (x : (⟨4, ![1, 32, 64, 64]⟩ : Shape).Idx → α) (ch r c : Nat) : α :=
  if h : ch < 32 ∧ (1 ≤ r ∧ r < 65) ∧ (1 ≤ c ∧ c < 65) then
    x (ix4 (0 : Fin 1) (⟨ch, h.1⟩ : Fin 32) (⟨r - 1, by omega⟩ : Fin 64) (⟨c - 1, by omega⟩ : Fin 64))
  else z

/-- On the border the padded slab is `z`. -/
theorem slabPad_border (z : α) (x : (⟨4, ![1, 32, 64, 64]⟩ : Shape).Idx → α) {ch r c : Nat}
    (h : ¬((1 ≤ r ∧ r < 65) ∧ (1 ≤ c ∧ c < 65))) : slabPad z x ch r c = z := by
  unfold slabPad
  rw [dif_neg fun hh => h hh.2]

/-- The nine shifted windows of every plane of a slab. -/
def slabPatches (z : α) (x : (⟨4, ![1, 32, 64, 64]⟩ : Shape).Idx → α) : (⟨5, ![1, 32, 9, 64, 64]⟩ : Shape).Idx → α :=
  fun j => slabPad z x (j 1).val ((j 2).val / 3 + (j 3).val) ((j 2).val % 3 + (j 4).val)

/-- The whole image padded with `z`, at image `b`, plane `ch`, padded row `r`, padded column `c`. -/
def imgPad (z : α) (X : (⟨4, ![16, 128, 64, 64]⟩ : Shape).Idx → α) (b ch r c : Nat) : α :=
  if h : (b < 16 ∧ ch < 128) ∧ (1 ≤ r ∧ r < 65) ∧ (1 ≤ c ∧ c < 65) then
    X (ix4 (⟨b, h.1.1⟩ : Fin 16) (⟨ch, h.1.2⟩ : Fin 128) (⟨r - 1, by omega⟩ : Fin 64) (⟨c - 1, by omega⟩ : Fin 64))
  else z

/-- On the border the padded image is `z`. -/
theorem imgPad_border (z : α) (X : (⟨4, ![16, 128, 64, 64]⟩ : Shape).Idx → α) {b ch r c : Nat}
    (h : ¬((1 ≤ r ∧ r < 65) ∧ (1 ≤ c ∧ c < 65))) : imgPad z X b ch r c = z := by
  unfold imgPad
  rw [dif_neg fun hh => h hh.2]

/-- Inside, the padded image is the image one row up and one column to the left. -/
theorem imgPad_inside (z : α) (X : (⟨4, ![16, 128, 64, 64]⟩ : Shape).Idx → α) {b ch r c : Nat}
    (hb : b < 16) (hch : ch < 128) (hr : 1 ≤ r ∧ r < 65) (hc : 1 ≤ c ∧ c < 65) :
    imgPad z X b ch r c
      = X (ix4 (⟨b, hb⟩ : Fin 16) (⟨ch, hch⟩ : Fin 128) (⟨r - 1, by omega⟩ : Fin 64) (⟨c - 1, by omega⟩ : Fin 64)) := by
  unfold imgPad
  rw [dif_pos ⟨⟨hb, hch⟩, hr, hc⟩]

/-- Equal coordinates give equal values of the padded image. -/
theorem imgPad_congr (z : α) (X : (⟨4, ![16, 128, 64, 64]⟩ : Shape).Idx → α) {b b' ch ch' r r' c c' : Nat}
    (hb : b = b') (hch : ch = ch') (hr : r = r') (hc : c = c') : imgPad z X b ch r c = imgPad z X b' ch' r' c' := by
  subst hb hch hr hc; rfl

/-- The nine shifted windows of every plane of the image: the result of both programs before the final
    flattening of (plane, window) and of (row, column). -/
def patches (z : α) (X : (⟨4, ![16, 128, 64, 64]⟩ : Shape).Idx → α) : (⟨5, ![16, 128, 9, 64, 64]⟩ : Shape).Idx → α :=
  fun j => imgPad z X (j 0).val (j 1).val ((j 2).val / 3 + (j 3).val) ((j 2).val % 3 + (j 4).val)

/-- A slab that is block `(b, k)` of the image (image `b`, planes `32 k` to `32 k + 31`) pads to the image's padding
    at those planes. -/
theorem slabPad_eq_imgPad (z : α) (X : (⟨4, ![16, 128, 64, 64]⟩ : Shape).Idx → α)
    (x : (⟨4, ![1, 32, 64, 64]⟩ : Shape).Idx → α) (b k : Nat) (hb : b < 16) (hk : k < 4)
    (hx : ∀ (ch : Fin 32) (r c : Fin 64),
      x (ix4 (0 : Fin 1) ch r c) = X (ix4 (⟨b, hb⟩ : Fin 16) (⟨k * 32 + ch.val, by have := ch.isLt; omega⟩ : Fin 128) r c))
    (ch r c : Nat) (hch : ch < 32) : slabPad z x ch r c = imgPad z X b (k * 32 + ch) r c := by
  by_cases hin : (1 ≤ r ∧ r < 65) ∧ (1 ≤ c ∧ c < 65)
  · unfold slabPad imgPad
    rw [dif_pos ⟨hch, hin⟩, dif_pos ⟨⟨hb, by omega⟩, hin⟩]
    exact hx ⟨ch, hch⟩ _ _
  · rw [slabPad_border z x hin, imgPad_border z X hin]

end Cert.Patches

end
-- ==== Proof.RefValue.lean ====
/-
  What the reference computes before its final flattening, at any float instance.

  The reference pads the image by one row and one column of a constant on every side, takes the nine 64 × 64 slices
  of the padded image at row offsets 0, 1, 2 and column offsets 0, 1, 2, gives each a unit axis after the plane axis,
  and concatenates the nine along that axis. Read at an index: the padding is the image one row up and one column to
  the left inside the border and the constant on it (`padded_apply`); slice `n` is the padded image shifted by
  `(n / 3, n % 3)` (`window_apply`); and the concatenation at window coordinate `n` is slice `n`
  (`stacked_apply`). Together: the image's nine shifted windows (`stacked_eq`).
-/
import proofs.«173785_j55791625175250_1_alg».proof.Proof.Gen.ReferenceIdeal.Read
import proofs.«173785_j55791625175250_1_alg».proof.Proof.Spec
import Idealize.ShloMosaic.Lib.Pipeline.Value
import Idealize.ShloMosaic.Lib.KernelVsHost

noncomputable section

open Idealize.ShloMosaic Idealize.ShloMosaic.TcCoe Idealize.SL.Sem Idealize.ShloMosaic.ValueIdx

namespace Cert.ReferenceIdeal.Patch

open Cert.ReferenceIdeal Cert.ReferenceIdeal.Gen Cert.ReferenceIdeal.Read Cert.Patches

variable {F : FTy → Type} [FloatOps F]

/-- The constant the reference pads with: the integer zero converted to a float. -/
abbrev border : Elt F .f32 := FloatOps.sitofp .f32 (0#32 : BitVec 32)

/-- The padding read at an index: the image one row up and one column to the left inside the border, the
    constant on the border. -/
theorem padded_apply (x0 : (⟨S16x128x64x64, .f32⟩ : BufTy).Contents (Elt F)) (q : S16x128x66x66.Idx) :
    val_main_v0 (F := F) x0 q = imgPad (border (F := F)) x0 (q 0).val (q 1).val (q 2).val (q 3).val := by
  have h0 : (q 0).val < 16 := (q 0).isLt
  have h1 : (q 1).val < 128 := (q 1).isLt
  unfold val_main_v0
  by_cases hin : (1 ≤ (q 2).val ∧ (q 2).val < 65) ∧ (1 ≤ (q 3).val ∧ (q 3).val < 65)
  · rw [imgPad_inside _ _ h0 h1 hin.1 hin.2]
    refine pad_apply_of_inside _ _ _ x0 _ _ _ q _ fun a => ?_
    match a with
    | ⟨0, _⟩ => show (q 0).val = 0 + (q 0).val * (0 + 1); omega
    | ⟨1, _⟩ => show (q 1).val = 0 + (q 1).val * (0 + 1); omega
    | ⟨2, _⟩ => show (q 2).val = 1 + ((q 2).val - 1) * (0 + 1); omega
    | ⟨3, _⟩ => show (q 3).val = 1 + ((q 3).val - 1) * (0 + 1); omega
  · rw [imgPad_border _ _ hin]
    by_cases h2 : 1 ≤ (q 2).val ∧ (q 2).val < 65
    · have h3 : ¬(1 ≤ (q 3).val ∧ (q 3).val < 65) := fun h => hin ⟨h2, h⟩
      refine (pad_apply_of_not_inside _ _ _ x0 _ _ _ q (3 : Fin 4) ?_).trans rfl
      show ¬(1 ≤ (q 3).val ∧ ((q 3).val - 1) % (0 + 1) = 0 ∧ ((q 3).val - 1) / (0 + 1) < 64)
      intro ⟨a, _, b⟩
      rw [Nat.zero_add, Nat.div_one] at b
      exact h3 ⟨a, by omega⟩
    · refine (pad_apply_of_not_inside _ _ _ x0 _ _ _ q (2 : Fin 4) ?_).trans rfl
      show ¬(1 ≤ (q 2).val ∧ ((q 2).val - 1) % (0 + 1) = 0 ∧ ((q 2).val - 1) / (0 + 1) < 64)
      intro ⟨a, _, b⟩
      rw [Nat.zero_add, Nat.div_one] at b
      exact h2 ⟨a, by omega⟩

/-- The nine slices with their unit axis, in the order the reference concatenates them. -/
def windows (x0 : (⟨S16x128x64x64, .f32⟩ : BufTy).Contents (Elt F)) : Fin 9 → (S16x128x1x64x64.Idx → Elt F .f32)
  | ⟨0, _⟩ => val_main_v10 (F := F) x0
  | ⟨1, _⟩ => val_main_v11 (F := F) x0
  | ⟨2, _⟩ => val_main_v12 (F := F) x0
  | ⟨3, _⟩ => val_main_v13 (F := F) x0
  | ⟨4, _⟩ => val_main_v14 (F := F) x0
  | ⟨5, _⟩ => val_main_v15 (F := F) x0
  | ⟨6, _⟩ => val_main_v16 (F := F) x0
  | ⟨7, _⟩ => val_main_v17 (F := F) x0
  | ⟨8, _⟩ => val_main_v18 (F := F) x0

/-- Slice `n` read at an index is the padded image shifted down by `n / 3` rows and right by `n % 3` columns. -/
theorem window_apply (x0 : (⟨S16x128x64x64, .f32⟩ : BufTy).Contents (Elt F)) (n : Fin 9) (i : S16x128x1x64x64.Idx) :
    windows (F := F) x0 n i
      = imgPad (border (F := F)) x0 (i 0).val (i 1).val (n.val / 3 + (i 3).val) (n.val % 3 + (i 4).val) :=
  match n with
  | ⟨0, _⟩ => by
    show val_main_v10 (F := F) x0 i = _
    rw [val_main_v10_apply, val_main_v1_apply, padded_apply]
    exact imgPad_congr _ _ rfl rfl (show (i 3).val = 0 / 3 + (i 3).val by omega) (show (i 4).val = 0 % 3 + (i 4).val by omega)
  | ⟨1, _⟩ => by
    show val_main_v11 (F := F) x0 i = _
    rw [val_main_v11_apply, val_main_v2_apply, padded_apply]
    exact imgPad_congr _ _ rfl rfl (show (i 3).val = 1 / 3 + (i 3).val by omega) (show 1 + (i 4).val = 1 % 3 + (i 4).val by omega)
  | ⟨2, _⟩ => by
    show val_main_v12 (F := F) x0 i = _
    rw [val_main_v12_apply, val_main_v3_apply, padded_apply]
    exact imgPad_congr _ _ rfl rfl (show (i 3).val = 2 / 3 + (i 3).val by omega) (show 2 + (i 4).val = 2 % 3 + (i 4).val by omega)
  | ⟨3, _⟩ => by
    show val_main_v13 (F := F) x0 i = _
    rw [val_main_v13_apply, val_main_v4_apply, padded_apply]
    exact imgPad_congr _ _ rfl rfl (show 1 + (i 3).val = 3 / 3 + (i 3).val by omega) (show (i 4).val = 3 % 3 + (i 4).val by omega)
  | ⟨4, _⟩ => by
    show val_main_v14 (F := F) x0 i = _
    rw [val_main_v14_apply, val_main_v5_apply, padded_apply]
    exact imgPad_congr _ _ rfl rfl (show 1 + (i 3).val = 4 / 3 + (i 3).val by omega) (show 1 + (i 4).val = 4 % 3 + (i 4).val by omega)
  | ⟨5, _⟩ => by
    show val_main_v15 (F := F) x0 i = _
    rw [val_main_v15_apply, val_main_v6_apply, padded_apply]
    exact imgPad_congr _ _ rfl rfl (show 1 + (i 3).val = 5 / 3 + (i 3).val by omega) (show 2 + (i 4).val = 5 % 3 + (i 4).val by omega)
  | ⟨6, _⟩ => by
    show val_main_v16 (F := F) x0 i = _
    rw [val_main_v16_apply, val_main_v7_apply, padded_apply]
    exact imgPad_congr _ _ rfl rfl (show 2 + (i 3).val = 6 / 3 + (i 3).val by omega) (show (i 4).val = 6 % 3 + (i 4).val by omega)
  | ⟨7, _⟩ => by
    show val_main_v17 (F := F) x0 i = _
    rw [val_main_v17_apply, val_main_v8_apply, padded_apply]
    exact imgPad_congr _ _ rfl rfl (show 2 + (i 3).val = 7 / 3 + (i 3).val by omega) (show 1 + (i 4).val = 7 % 3 + (i 4).val by omega)
  | ⟨8, _⟩ => by
    show val_main_v18 (F := F) x0 i = _
    rw [val_main_v18_apply, val_main_v9_apply, padded_apply]
    exact imgPad_congr _ _ rfl rfl (show 2 + (i 3).val = 8 / 3 + (i 3).val by omega) (show 2 + (i 4).val = 8 % 3 + (i 4).val by omega)

/-- The concatenation of the nine slices along the window axis, read at an index: slice `n` at the window
    coordinate `n`, the other coordinates kept. -/
theorem stacked_apply (x0 : (⟨S16x128x64x64, .f32⟩ : BufTy).Contents (Elt F)) (j : S16x128x9x64x64.Idx) :
    val_main_v19 (F := F) x0 j
      = windows (F := F) x0 ⟨(j 2).val, (j 2).isLt⟩ (ix5 (j 0) (j 1) (0 : Fin 1) (j 3) (j 4)) := by
  unfold val_main_v19
  refine concatenate_ofFn_unit_apply (t := S16x128x9x64x64) (s₁ := S16x128x1x64x64) (2 : Fin 5) (windows (F := F) x0) _ rfl rfl j
    ⟨(j 2).val, (j 2).isLt⟩ rfl (ix5 (j 0) (j 1) (0 : Fin 1) (j 3) (j 4)) fun b hb => ?_
  match b with
  | ⟨0, _⟩ => rfl
  | ⟨1, _⟩ => rfl
  | ⟨2, _⟩ => exact absurd rfl hb
  | ⟨3, _⟩ => rfl
  | ⟨4, _⟩ => rfl

/-- The reference's array before its final flattening is the image's nine shifted windows, padded with its constant. -/
theorem stacked_eq (x0 : (⟨S16x128x64x64, .f32⟩ : BufTy).Contents (Elt F)) :
    val_main_v19 (F := F) x0 = patches (border (F := F)) x0 := by
  funext j
  rw [stacked_apply, window_apply]
  rfl

end Cert.ReferenceIdeal.Patch

end
-- ==== Proof.KernelBlock.lean ====
/-
  What one grid point of the kernel leaves in its output block, at any float instance.

  The body fills a 32 × 66 × 66 scratch with zeros, copies the point's slab of 32 planes into its interior
  (rows and columns 1 to 64), and then, for each of the nine shifts `(dy, dx)`, loads the 32 × 64 × 64 window of the
  scratch at offset `(0, dy, dx)` and stores it as window `3 dy + dx` of the output block. So the scratch holds the
  zero-padded slab (`scratch_apply`), a shifted load of it is a shifted window of the padded slab (`window_apply`),
  and the nine stores together leave the slab's nine windows (`block_eq`).
-/
import proofs.«173785_j55791625175250_1_alg».proof.Proof.Gen.KernelIdeal.Frame
import proofs.«173785_j55791625175250_1_alg».proof.Proof.Spec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen Cert.Patches

variable {F : FTy → Type} [FloatOps F]

/-- The value the body fills the scratch with before copying the slab in. -/
abbrev fill : Elt F .f32 := Scalar.ofBits .f32 0x00000000#32

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The two stores into the scratch, last first: the slab into the interior, over the fill everywhere. -/
abbrev scratchStores (x : Vec F S1x32x64x64 .f32)
    (inbI : ∀ a, (![0, 1, 1] : Fin 3 → Nat) a + S32x64x64.size a ≤ S32x66x66.size a)
    (inbW : ∀ a, (![0, 0, 0] : Fin 3 → Nat) a + S32x66x66.size a ≤ S32x66x66.size a) :
    List (View.Piece (Elt F) S32x66x66 .f32) :=
  [⟨Rect.unit (s := S32x66x66) ![0, 1, 1] S32x64x64.size inbI, k0_pay4 x⟩, ⟨Rect.unit (s := S32x66x66) ![0, 0, 0] S32x66x66.size inbW, k0_pay3⟩]

/-- After the two stores the scratch is the slab padded with the fill: at `(ch, r, c)` the slab's `(ch, r - 1, c - 1)`
    inside the border, the fill on it. -/
theorem scratch_apply (x : Vec F S1x32x64x64 .f32)
    (inbI : ∀ a, (![0, 1, 1] : Fin 3 → Nat) a + S32x64x64.size a ≤ S32x66x66.size a)
    (inbW : ∀ a, (![0, 0, 0] : Fin 3 → Nat) a + S32x66x66.size a ≤ S32x66x66.size a) (p : S32x66x66.Idx) :
    View.canon (scratchStores x inbI inbW) p = slabPad (fill (F := F)) x (p 0).val (p 1).val (p 2).val := by
  have hp0 : (p 0).val < 32 := (p 0).isLt
  by_cases hin : (1 ≤ (p 1).val ∧ (p 1).val < 65) ∧ (1 ≤ (p 2).val ∧ (p 2).val < 65)
  · -- inside the border: the index is in the interior store's rectangle, one row and column in
    obtain ⟨⟨h1a, h1b⟩, ⟨h2a, h2b⟩⟩ := hin
    have hp : p = (Rect.unit (s := S32x66x66) ![0, 1, 1] S32x64x64.size inbI).emb
        (ix3 (⟨(p 0).val, hp0⟩ : Fin 32) (⟨(p 1).val - 1, by omega⟩ : Fin 64) (⟨(p 2).val - 1, by omega⟩ : Fin 64)) :=
      funext fun a => Fin.ext (by
        match a with
        | ⟨0, _⟩ => show (p 0).val = 0 + 1 * (p 0).val; omega
        | ⟨1, _⟩ => show (p 1).val = 1 + 1 * ((p 1).val - 1); omega
        | ⟨2, _⟩ => show (p 2).val = 1 + 1 * ((p 2).val - 1); omega)
    refine (congrArg (View.canon (scratchStores x inbI inbW)) hp).trans ((View.canon_cons_emb _ _ _ _).trans ?_)
    unfold k0_pay4 slabPad
    rw [dif_pos ⟨hp0, ⟨h1a, h1b⟩, ⟨h2a, h2b⟩⟩]
    dsimp only
    rw [shapeCast_self]
    refine shapeCast_apply x _ _ _ ?_
    rw [Shape.rowMajor_val_four, Shape.rowMajor_val_three]
    show (((0 : Nat) * 32 + (p 0).val) * 64 + ((p 1).val - 1)) * 64 + ((p 2).val - 1)
      = ((p 0).val * 64 + ((p 1).val - 1)) * 64 + ((p 2).val - 1)
    omega
  · -- on the border: outside the interior store's rectangle, so the fill of the whole-scratch store
    have hnot : p ∉ (Rect.unit (s := S32x66x66) ![0, 1, 1] S32x64x64.size inbI).set := by
      rw [Rect.mem_set_unit]
      intro hm
      have m1 : 1 ≤ (p 1).val ∧ (p 1).val < 1 + 64 := hm 1
      have m2 : 1 ≤ (p 2).val ∧ (p 2).val < 1 + 64 := hm 2
      exact hin ⟨⟨m1.1, by omega⟩, ⟨m2.1, by omega⟩⟩
    rw [slabPad_border _ _ hin]
    refine (View.canon_cons_of_not_mem
      (⟨Rect.unit (s := S32x66x66) ![0, 1, 1] S32x64x64.size inbI, k0_pay4 x⟩ : View.Piece (Elt F) S32x66x66 .f32)
      [⟨Rect.unit (s := S32x66x66) ![0, 0, 0] S32x66x66.size inbW, k0_pay3⟩] hnot).trans ?_
    rw [View.canon_unit_zero hz3]
    unfold k0_pay3
    rw [shapeCast_self]
    rfl

/-- A load of the 32 × 64 × 64 window of the scratch at offset `(0, dy, dx)`, viewed as one window of the output
    block (unit axes added in front and before the rows), is the padded slab shifted by `(dy, dx)`. -/
theorem window_apply (x : Vec F S1x32x64x64 .f32)
    (inbI : ∀ a, (![0, 1, 1] : Fin 3 → Nat) a + S32x64x64.size a ≤ S32x66x66.size a)
    (inbW : ∀ a, (![0, 0, 0] : Fin 3 → Nat) a + S32x66x66.size a ≤ S32x66x66.size a)
    (v : View sig .tc .vmem S32x66x66 .f32) (dy dx : Nat)
    (inbL : ∀ a, (![0, dy, dx] : Fin 3 → Nat) a + S32x64x64.size a ≤ S32x66x66.size a)
    (hc : S32x64x64.ShapeCasts S1x32x1x64x64) (y : S1x32x1x64x64.Idx) :
    shapeCast S1x32x1x64x64 (v.readCov (scratchStores x inbI inbW) (Rect.unit (s := S32x66x66) ![0, dy, dx] S32x64x64.size inbL).toLoadRect) hc y
      = slabPad (fill (F := F)) x (y 1).val (dy + (y 3).val) (dx + (y 4).val) := by
  have h0 : (y 0).val < 1 := (y 0).isLt
  have h1 : (y 1).val < 32 := (y 1).isLt
  have h2 : (y 2).val < 1 := (y 2).isLt
  have h3 : (y 3).val < 64 := (y 3).isLt
  have h4 : (y 4).val < 64 := (y 4).isLt
  rw [View.readCov_eq_canon']
  refine (shapeCast_apply _ hc y (ix3 (⟨(y 1).val, h1⟩ : Fin 32) (⟨(y 3).val, h3⟩ : Fin 64) (⟨(y 4).val, h4⟩ : Fin 64)) ?_).trans ?_
  · rw [Shape.rowMajor_val_three, Shape.rowMajor_val_five]
    show ((y 1).val * 64 + (y 3).val) * 64 + (y 4).val
      = ((((y 0).val * 32 + (y 1).val) * 1 + (y 2).val) * 64 + (y 3).val) * 64 + (y 4).val
    omega
  · dsimp only
    rw [scratch_apply]
    show slabPad (fill (F := F)) x (0 + 1 * (y 1).val) (dy + 1 * (y 3).val) (dx + 1 * (y 4).val) = _
    rw [show 0 + 1 * (y 1).val = (y 1).val by omega, show dy + 1 * (y 3).val = dy + (y 3).val by omega,
      show dx + 1 * (y 4).val = dx + (y 4).val by omega]

/-- Window `k = 3 dy + dx` of the output block, stored from a value that is the padded slab shifted by `(dy, dx)`, is
    the slab's window `k` at the stored indices. -/
theorem stored_apply (x : Vec F S1x32x64x64 .f32) (k dy dx : Nat) (hk : k = 3 * dy + dx) (hdx : dx < 3)
    (inbS : ∀ a, (![0, 0, k, 0, 0] : Fin 5 → Nat) a + S1x32x1x64x64.size a ≤ S1x32x9x64x64.size a)
    (w : S1x32x1x64x64.Idx → Elt F .f32)
    (hw : ∀ y : S1x32x1x64x64.Idx, w y = slabPad (fill (F := F)) x (y 1).val (dy + (y 3).val) (dx + (y 4).val))
    (y : S1x32x1x64x64.Idx) :
    w y = slabPatches (fill (F := F)) x ((Rect.unit (s := S1x32x9x64x64) ![0, 0, k, 0, 0] S1x32x1x64x64.size inbS).emb y) := by
  have h2 : (y 2).val < 1 := (y 2).isLt
  rw [hw]
  unfold slabPatches
  show _ = slabPad (fill (F := F)) x (0 + 1 * (y 1).val) ((k + 1 * (y 2).val) / 3 + (0 + 1 * (y 3).val))
    ((k + 1 * (y 2).val) % 3 + (0 + 1 * (y 4).val))
  rw [show 0 + 1 * (y 1).val = (y 1).val by omega, show (k + 1 * (y 2).val) / 3 + (0 + 1 * (y 3).val) = dy + (y 3).val by omega,
    show (k + 1 * (y 2).val) % 3 + (0 + 1 * (y 4).val) = dx + (y 4).val by omega]

/-- One of the nine stores: the window of the scratch at offset `(0, dy, dx)`, stored as window `k = 3 dy + dx` of the
    output block, agrees there with the slab's windows. -/
theorem piece_apply (x : Vec F S1x32x64x64 .f32) (k dy dx : Nat) (hk : k = 3 * dy + dx) (hdx : dx < 3)
    (inbS : ∀ a, (![0, 0, k, 0, 0] : Fin 5 → Nat) a + S1x32x1x64x64.size a ≤ S1x32x9x64x64.size a)
    (inbI : ∀ a, (![0, 1, 1] : Fin 3 → Nat) a + S32x64x64.size a ≤ S32x66x66.size a)
    (inbW : ∀ a, (![0, 0, 0] : Fin 3 → Nat) a + S32x66x66.size a ≤ S32x66x66.size a)
    (v : View sig .tc .vmem S32x66x66 .f32)
    (inbL : ∀ a, (![0, dy, dx] : Fin 3 → Nat) a + S32x64x64.size a ≤ S32x66x66.size a)
    (hc : S32x64x64.ShapeCasts S1x32x1x64x64) (y : S1x32x1x64x64.Idx) :
    shapeCast S1x32x1x64x64 (v.readCov (scratchStores x inbI inbW) (Rect.unit (s := S32x66x66) ![0, dy, dx] S32x64x64.size inbL).toLoadRect) hc y
      = slabPatches (fill (F := F)) x ((Rect.unit (s := S1x32x9x64x64) ![0, 0, k, 0, 0] S1x32x1x64x64.size inbS).emb y) :=
  stored_apply x k dy dx hk hdx inbS _ (window_apply x inbI inbW v dy dx inbL hc) y

/-- What the body leaves in the output block at any point: the nine shifted windows of the point's slab, padded with
    the fill. -/
theorem block_eq (c : Dev nD) (i : grid0.Coords) (a2 : Memref sig .tc .vmem S1x32x64x64 .f32) (h2 : a2.IsWhole)
    (a3 : Memref sig .tc .vmem S1x32x9x64x64 .f32) (h3 : a3.IsWhole) (a4 : Memref sig .tc .vmem S32x66x66 .f32) (h4 : a4.IsWhole)
    (x : Vec F S1x32x64x64 .f32) :
    out0_A_1 c i a2 h2 a3 h3 a4 h4 x = slabPatches (fill (F := F)) x := by
  unfold out0_A_1
  rw [View.read_writes_eq_canon _ _ _ (cover0_A_1 c i a2 h2 a3 h3 a4 h4 x)]
  funext y
  refine View.canon_apply_of_pieces (slabPatches (fill (F := F)) x) _ ?_ y (cover0_A_1 c i a2 h2 a3 h3 a4 h4 x y)
  unfold kernelRun0_A
  dsimp only
  sl_unfold_words
  simp only [View.readAt_eq_ld, h2.read_unread, View.ld_unit_zero (S := S1x32x64x64) hz4]
  intro p hp
  simp only [List.mem_cons, List.not_mem_nil, or_false] at hp
  rcases hp with rfl | rfl | rfl | rfl | rfl | rfl | rfl | rfl | rfl
  · exact fun y' => piece_apply x 8 2 2 rfl (by omega) (by decide) (by decide) (by decide) a4.view (by decide) Facts₀.shapeCasts_S32x64x64_S1x32x1x64x64 y'
  · exact fun y' => piece_apply x 7 2 1 rfl (by omega) (by decide) (by decide) (by decide) a4.view (by decide) Facts₀.shapeCasts_S32x64x64_S1x32x1x64x64 y'
  · exact fun y' => piece_apply x 6 2 0 rfl (by omega) (by decide) (by decide) (by decide) a4.view (by decide) Facts₀.shapeCasts_S32x64x64_S1x32x1x64x64 y'
  · exact fun y' => piece_apply x 5 1 2 rfl (by omega) (by decide) (by decide) (by decide) a4.view (by decide) Facts₀.shapeCasts_S32x64x64_S1x32x1x64x64 y'
  · exact fun y' => piece_apply x 4 1 1 rfl (by omega) (by decide) (by decide) (by decide) a4.view (by decide) Facts₀.shapeCasts_S32x64x64_S1x32x1x64x64 y'
  · exact fun y' => piece_apply x 3 1 0 rfl (by omega) (by decide) (by decide) (by decide) a4.view (by decide) Facts₀.shapeCasts_S32x64x64_S1x32x1x64x64 y'
  · exact fun y' => piece_apply x 2 0 2 rfl (by omega) (by decide) (by decide) (by decide) a4.view (by decide) Facts₀.shapeCasts_S32x64x64_S1x32x1x64x64 y'
  · exact fun y' => piece_apply x 1 0 1 rfl (by omega) (by decide) (by decide) (by decide) a4.view (by decide) Facts₀.shapeCasts_S32x64x64_S1x32x1x64x64 y'
  · exact fun y' => piece_apply x 0 0 0 rfl (by omega) (by decide) (by decide) (by decide) a4.view (by decide) Facts₀.shapeCasts_S32x64x64_S1x32x1x64x64 y'

end Cert.KernelIdeal.Block

end
-- ==== Proof.KernelArray.lean ====
/-
  The kernel's whole run, read as a value, at any float instance.

  Grid point `t` handles image `b` and planes `32 k` to `32 k + 31`, where `(b, k)` are the point's block indices:
  its input block is that slab of the image (`slab_apply`), and its output block is the block `(b, k)` of the
  image's nine shifted windows (`flushed_eq`, from the body's value). The 16 × 4 output blocks tile the output array
  (`cover`), so after the run the array is the image's nine shifted windows (`final`), and the host's flattening of
  (plane, window) and of (row, column) is applied to it (`run`).
-/
import proofs.«173785_j55791625175250_1_alg».proof.Proof.KernelBlock

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Patches Cert.KernelIdeal.Block

variable {F : FTy → Type} [FloatOps F]
variable (m : (ℓ : Loc nD τ sig) → Buf (Elt F) ℓ) (ρ : Dev nD → PrngReg)

/-- The two windows' block indices at every grid point: the input's follow the output's on the image and plane-block
    axes, both are zero on the remaining axes, and the output's range over 16 images and 4 plane blocks. -/
theorem idx_facts : ∀ t : Fin cfg0.N,
    win0_0.index t (0 : Fin 4) = win0_1.index t (0 : Fin 5) ∧ win0_0.index t (1 : Fin 4) = win0_1.index t (1 : Fin 5)
    ∧ win0_0.index t (2 : Fin 4) = 0 ∧ win0_0.index t (3 : Fin 4) = 0
    ∧ win0_1.index t (2 : Fin 5) = 0 ∧ win0_1.index t (3 : Fin 5) = 0 ∧ win0_1.index t (4 : Fin 5) = 0
    ∧ win0_1.index t (0 : Fin 5) < 16 ∧ win0_1.index t (1 : Fin 5) < 4 :=
  (by decide +kernel : ∀ t : Fin grid0.N, _)

/-- Every (image, plane block) is some grid point's. -/
theorem idx_onto : ∀ (q0 : Fin 16) (q1 : Fin 4), ∃ t : Fin cfg0.N, win0_1.index t = ![q0.val, q1.val, 0, 0, 0] :=
  (by decide +kernel : ∀ (q0 : Fin 16) (q1 : Fin 4), ∃ t : Fin grid0.N, win0_1.index t = ![q0.val, q1.val, 0, 0, 0])

/-- The input block at point `t` is the slab of the image at the point's image and plane block. -/
theorem slab_apply (c : Dev nD) (t : Fin cfg0.N) (hb : win0_1.index t (0 : Fin 5) < 16) (hk : win0_1.index t (1 : Fin 5) < 4)
    (ch : Fin 32) (r cc : Fin 64) :
    iblk m c 0 t (ix4 (0 : Fin 1) ch r cc)
      = V m c main_arg0 (ix4 (⟨win0_1.index t (0 : Fin 5), hb⟩ : Fin 16)
          (⟨win0_1.index t (1 : Fin 5) * 32 + ch.val, by have := ch.isLt; omega⟩ : Fin 128) r cc) := by
  obtain ⟨e0, e1, e2, e3, -, -, -, -, -⟩ := idx_facts t
  show V m c main_arg0 (((cfg0.win 0).blk t).view.emb (ix4 (0 : Fin 1) ch r cc)) = _
  refine congrArg (V m c main_arg0) (funext fun a => Fin.ext ?_)
  match a with
  | ⟨0, _⟩ => show win0_0.index t (0 : Fin 4) * 1 + 1 * 0 = win0_1.index t (0 : Fin 5); omega
  | ⟨1, _⟩ => show win0_0.index t (1 : Fin 4) * 32 + 1 * ch.val = win0_1.index t (1 : Fin 5) * 32 + ch.val; omega
  | ⟨2, _⟩ => show win0_0.index t (2 : Fin 4) * 64 + 1 * r.val = r.val; omega
  | ⟨3, _⟩ => show win0_0.index t (3 : Fin 4) * 64 + 1 * cc.val = cc.val; omega

/-- What point `t` writes back is block `t` of the image's nine shifted windows. -/
theorem flushed_eq (c : Dev nD) (t : Fin cfg0.N) :
    (dats m 0 c).flushed 1 t = ((cfg0.win 1).blk t).view.read (Elt F) (patches (fill (F := F)) (V m c main_arg0)) := by
  show (cfg0.win 1).cut (grid0.coords t) ((dats m 0 c).after 1 t) = _
  rw [after0_1]
  unfold outsAt0
  rw [block_eq]
  obtain ⟨-, -, -, -, e4, e5, e6, e7, e8⟩ := idx_facts t
  funext y
  have y0 : (y 0).val < 1 := (y 0).isLt
  show slabPatches (fill (F := F)) (iblk m c 0 t) y
    = patches (fill (F := F)) (V m c main_arg0) (((cfg0.win 1).blk t).view.emb y)
  unfold slabPatches patches
  refine (slabPad_eq_imgPad (fill (F := F)) (V m c main_arg0) (iblk m c 0 t) (win0_1.index t (0 : Fin 5))
    (win0_1.index t (1 : Fin 5)) e7 e8 (fun ch r cc => slab_apply m c t e7 e8 ch r cc) _ _ _ (y 1).isLt).trans ?_
  refine imgPad_congr _ _ ?_ ?_ ?_ ?_
  · show win0_1.index t (0 : Fin 5) = win0_1.index t (0 : Fin 5) * 1 + 1 * (y 0).val; omega
  · show win0_1.index t (1 : Fin 5) * 32 + (y 1).val = win0_1.index t (1 : Fin 5) * 32 + 1 * (y 1).val; omega
  · show (y 2).val / 3 + (y 3).val
      = (win0_1.index t (2 : Fin 5) * 9 + 1 * (y 2).val) / 3 + (win0_1.index t (3 : Fin 5) * 64 + 1 * (y 3).val)
    rw [e4, e5]; omega
  · show (y 2).val % 3 + (y 4).val
      = (win0_1.index t (2 : Fin 5) * 9 + 1 * (y 2).val) % 3 + (win0_1.index t (4 : Fin 5) * 64 + 1 * (y 4).val)
    rw [e4, e6]; omega

/-- An index of the output array is in point `t`'s block iff each coordinate is in the block's range on its axis. -/
theorem mem_blk (t : Fin cfg0.N) (i : S16x128x9x64x64.Idx) :
    i ∈ ((cfg0.win 1).blk t).view.set ↔ ∀ a : Fin 5, win0_1.index t a * S1x32x9x64x64.size a ≤ (i a).val
      ∧ (i a).val < win0_1.index t a * S1x32x9x64x64.size a + S1x32x9x64x64.size a := by
  show i ∈ ((View.whole main_v0).slice (win0_1.rect t)).set ↔ _
  rw [View.set_slice_whole, Rect.mem_set_unit]
  exact Iff.rfl

/-- The blocks tile the output array: index `i` is in the block of the point at image `i₀`, plane block `i₁ / 32`. -/
theorem cover (i : S16x128x9x64x64.Idx) :
    ∃ t : Fin cfg0.N, (cfg0.win 1).flush t = true ∧ i ∈ ((cfg0.win 1).blk t).view.set := by
  have h0 : (i 0).val < 16 := (i 0).isLt
  have h1 : (i 1).val < 128 := (i 1).isLt
  have h2 : (i 2).val < 9 := (i 2).isLt
  have h3 : (i 3).val < 64 := (i 3).isLt
  have h4 : (i 4).val < 64 := (i 4).isLt
  obtain ⟨t, ht⟩ := idx_onto ⟨(i 0).val, h0⟩ ⟨(i 1).val / 32, by omega⟩
  have q0 : win0_1.index t (0 : Fin 5) = (i 0).val := congrFun ht 0
  have q1 : win0_1.index t (1 : Fin 5) = (i 1).val / 32 := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 32 ≤ (i 1).val ∧ (i 1).val < win0_1.index t (1 : Fin 5) * 32 + 32; omega
  | ⟨2, _⟩ => show win0_1.index t (2 : Fin 5) * 9 ≤ (i 2).val ∧ (i 2).val < win0_1.index t (2 : Fin 5) * 9 + 9; omega
  | ⟨3, _⟩ => show win0_1.index t (3 : Fin 5) * 64 ≤ (i 3).val ∧ (i 3).val < win0_1.index t (3 : Fin 5) * 64 + 64; omega
  | ⟨4, _⟩ => show win0_1.index t (4 : Fin 5) * 64 ≤ (i 4).val ∧ (i 4).val < win0_1.index t (4 : Fin 5) * 64 + 64; omega

/-- After the run the output array is the nine shifted windows of the image the run started from. -/
theorem final (c : Dev nD) :
    (dats m 0 c).arrAt 1 cfg0.N = patches (fill (F := F)) (m ((c : Thread nD τ).loc main_arg0)) :=
  (dats m 0 c).arrAt_eq_of_cover 1 (patches (fill (F := F)) (V m c main_arg0)) (fun t _ => flushed_eq m c t) cover

/-- The host's flattening after the region reads the output array the region left. -/
theorem tail_eq (c : Dev nD) :
    Pipeline.afterTail₀ cfgs (dats m) 0 (V0 m) [hostOps1] c main_v1
      = shapeCast S16x1152x4096 (patches (fill (F := F)) (m ((c : Thread nD τ).loc main_arg0)))
          Facts₀.shapeCasts_S16x128x9x64x64_S16x1152x4096 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = patches (fill (F := F)) (m ((c : Thread nD τ).loc main_arg0)) :=
    (Pipeline.withArrays_arr spec0 launch0.win.arr_inj c _ _ 1).trans (final m c)
  rw [e]
  rfl

/-- The run, read: the result is the flattening of the image's nine shifted windows, and the argument is unchanged. -/
theorem run : θ_run defs (onTc (τ := τ) (main (F := F))) ⟨m, fun _ => 0, ρ⟩ fun r => ∀ c : Dev nD,
      r.2.mem ((c : Thread nD τ).loc main_v1)
        = shapeCast S16x1152x4096 (patches (fill (F := F)) (m ((c : Thread nD τ).loc main_arg0)))
            Facts₀.shapeCasts_S16x128x9x64x64_S16x1152x4096
      ∧ r.2.mem ((c : Thread nD τ).loc main_arg0) = m ((c : Thread nD τ).loc main_arg0) :=
  (θ_run defs _ _).mono (fun r h c => ⟨((h c).2 main_v1 (by decide)).trans (tail_eq m c),
      ((h c).1 0).trans (((dats m 0 c).arrAt_in 0 rfl _).trans ((A_eq m c 0).trans (V_main_arg0 m c)))⟩)
    (run_main m ρ)

end Cert.KernelIdeal.Whole

end
-- ==== Proof.lean ====
/-
  The kernel and its reference both return, for an image of 16 × 128 planes of 64 × 64 values, the nine 64 × 64 windows
  of every zero-padded plane at the row shifts 0, 1, 2 and column shifts 0, 1, 2, flattened to 16 × 1152 × 4096:
  entry `(b, 9 ch + p, 64 y + x)` is the padded plane `(b, ch)` at `(p / 3 + y, p % 3 + x)`.

  The kernel does it 32 planes at a time: it zero-fills a 66 × 66 scratch per plane, copies the planes into the interior,
  and stores the nine shifted windows of the scratch; the host then flattens (Proof/KernelBlock.lean for one grid point,
  Proof/KernelArray.lean for the whole run). The reference pads, slices nine times, stacks and flattens
  (Proof/RefValue.lean). Both are the same function of the image (Proof/Spec.lean) once the two padding values are
  compared: the kernel's is the float zero, the reference's the integer zero converted to a float, which over the extended
  reals are both the number 0 (`border_eq_fill`). No arithmetic is done on the image's values, so the precondition is
  not used. The idealization rewrote nothing in the kernel, so that conjunct is trivial; the three frames are the two
  generated kernel frames and the reference's generated run with its result dropped.
-/
import proofs.«173785_j55791625175250_1_alg».proof.Defs
import proofs.«173785_j55791625175250_1_alg».proof.Proof.Gen.Kernel
import proofs.«173785_j55791625175250_1_alg».proof.Proof.Gen.Kernel.Skeleton
import proofs.«173785_j55791625175250_1_alg».proof.Proof.Gen.Kernel.Launch
import proofs.«173785_j55791625175250_1_alg».proof.Proof.Gen.Kernel.Points
import proofs.«173785_j55791625175250_1_alg».proof.Proof.Gen.Kernel.Frame
import proofs.«173785_j55791625175250_1_alg».proof.Proof.Gen.KernelIdeal
import proofs.«173785_j55791625175250_1_alg».proof.Proof.Gen.KernelIdeal.Skeleton
import proofs.«173785_j55791625175250_1_alg».proof.Proof.Gen.KernelIdeal.Launch
import proofs.«173785_j55791625175250_1_alg».proof.Proof.Gen.KernelIdeal.Points
import proofs.«173785_j55791625175250_1_alg».proof.Proof.Gen.KernelIdeal.Frame
import proofs.«173785_j55791625175250_1_alg».proof.Proof.Gen.ReferenceIdeal
import proofs.«173785_j55791625175250_1_alg».proof.Proof.Gen.Pre_finite_inputs
import proofs.«173785_j55791625175250_1_alg».proof.Proof.RefValue
import proofs.«173785_j55791625175250_1_alg».proof.Proof.KernelArray
import Idealize.ShloMosaic.Adequacy
import Idealize.ShloMosaic.Init
import Idealize.ShloMosaic.PureOps.Ideal.Laws
import Idealize.ShloMosaic.Lib.KernelVsHost

noncomputable section

namespace Cert.Proof

open Idealize.ShloMosaic Idealize.ShloMosaic.TcCoe Idealize.SL.Sem Cert.Patches

/-- Over the extended reals the reference's padding value (the integer zero converted) is the kernel's (the float
    zero): both are the number 0. -/
theorem border_eq_fill :
    Cert.ReferenceIdeal.Patch.border (F := Ideal) = Cert.KernelIdeal.Block.fill (F := Ideal) :=
  (sitofp_zero (φ := .f32)).trans Ideal.ofBits_zero_f32.symm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the flattening of the nine shifted windows of the zero-padded image they started from. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq]
  unfold Cert.ReferenceIdeal.Read.val_main_v20
  rw [Cert.ReferenceIdeal.Patch.stacked_eq, hagree c, border_eq_fill]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
